-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S11008x4096 : Shape := ⟨2, ![11008, 4096]⟩
abbrev S4096x11008 : Shape := ⟨2, ![4096, 11008]⟩
abbrev S2x2048 : Shape := ⟨2, ![2, 2048]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S4096x11008 : S_.BroadcastsInDim S4096x11008 (![] : Fin 0 → Fin S4096x11008.rank)
  reducesTo_S4096x11008_S_d0_1 : S4096x11008.ReducesTo [0, 1] S_

variable [Facts]

def fn_part1 {F : FTy → Type} [FloatOps F] (main_v13 : IVec S_ 1) (main_v16 : IVec S4096x11008 1) : IVec S_ 1 :=
  let main_c_5 : IVec S_ 1 := constantI S_ 1 1#1
  let main_v17 : IVec S_ 1 := (fun x v => Host.reduce IntOp.andi x v reducesTo_S4096x11008_S_d0_1 h_S_) main_v16 main_c_5
  let main_v18 : IVec S_ 1 := andi main_v13 main_v17
  main_v18

def fn {F : FTy → Type} [FloatOps F] (main_arg0 : FVec F S2x2048x4096 .f32) (main_arg1 : FVec F S11008x4096 .f32) (main_arg2 : FVec F S11008x4096 .f32) (main_arg3 : FVec F S4096x11008 .f32) (main_arg4 : IVec S2x2048 32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008x4096 .f32 := Host.absf main_arg2
  let main_cst_2 : FVec F S_ .f32 := constant S_ .f32 0x7F800000#32
  let main_v10 : FVec F S11008x4096 .f32 := broadcastInDim S11008x4096 ![] bcast_S_S11008x4096 main_cst_2
  let main_v11 : IVec S11008x4096 1 := cmpf .olt main_v9 main_v10
  let main_c_3 : IVec S_ 1 := constantI S_ 1 1#1
  let main_v12 : IVec S_ 1 := (fun x v => Host.reduce IntOp.andi x v reducesTo_S11008x4096_S_d0_1 h_S_) main_v11 main_c_3
  let main_v13 : IVec S_ 1 := andi main_v8 main_v12
  let main_v14 : FVec F S4096x11008 .f32 := Host.absf main_arg3
  let main_cst_4 : FVec F S_ .f32 := constant S_ .f32 0x7F800000#32
  let main_v15 : FVec F S4096x11008 .f32 := broadcastInDim S4096x11008 ![] bcast_S_S4096x11008 main_cst_4
  let main_v16 : IVec S4096x11008 1 := cmpf .olt main_v14 main_v15
  fn_part1 (F := F) main_v13 main_v16
-- ==== Kernel.lean ====
abbrev S2x2048x4096 : Shape := ⟨3, ![2, 2048, 4096]⟩
abbrev S11008x4096 : Shape := ⟨2, ![11008, 4096]⟩
abbrev S4096x11008 : Shape := ⟨2, ![4096, 11008]⟩
abbrev S2x2048 : Shape := ⟨2, ![2, 2048]⟩
abbrev S4096x4096 : Shape := ⟨2, ![4096, 4096]⟩
abbrev S4096x1 : Shape := ⟨2, ![4096, 1]⟩
abbrev S512x4096 : Shape := ⟨2, ![512, 4096]⟩
abbrev S256x4096 : Shape := ⟨2, ![256, 4096]⟩
abbrev S4096x256 : Shape := ⟨2, ![4096, 256]⟩
abbrev S512x1 : Shape := ⟨2, ![512, 1]⟩
abbrev S512x256 : Shape := ⟨2, ![512, 256]⟩

abbrev nBuf : Space → Nat
  | .hbm => 14
  | .vmem => 13
  | .smem => 0
  | _ => 0

abbrev bufTy : (tb : Table) → Fin (tcTables nBuf tb) → BufTy
  | .hbm, ⟨0, _⟩ => ⟨S2x2048x4096, .f32⟩
  | .hbm, ⟨1, _⟩ => ⟨S11008x4096, .f32⟩
  | .hbm, ⟨2, _⟩ => ⟨S11008x4096, .f32⟩
  | .hbm, ⟨3, _⟩ => ⟨S4096x11008, .f32⟩
  | .hbm, ⟨4, _⟩ => ⟨S2x2048, .i32⟩
  | .hbm, ⟨5, _⟩ => ⟨S4096x4096, .f32⟩
  | .hbm, ⟨6, _⟩ => ⟨S4096x4096, .bf16⟩
  | .hbm, ⟨7, _⟩ => ⟨S11008x4096, .bf16⟩
  | .hbm, ⟨8, _⟩ => ⟨S11008x4096, .bf16⟩
  | .hbm, ⟨9, _⟩ => ⟨S4096x11008, .bf16⟩
  | .hbm, ⟨10, _⟩ => ⟨S4096x1, .i32⟩
  | .hbm, ⟨11, _⟩ => ⟨S4096x1, .f32⟩
  | .hbm, ⟨12, _⟩ => ⟨S4096x4096, .f32⟩
  | .hbm, ⟨13, _⟩ => ⟨S2x2048x4096, .f32⟩
  | .local _ .vmem, ⟨0, _⟩ => ⟨S512x4096, .bf16⟩
  | .local _ .vmem, ⟨1, _⟩ => ⟨S512x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S4096x256, .bf16⟩
  | .local _ .vmem, ⟨7, _⟩ => ⟨S4096x256, .bf16⟩
  | .local _ .vmem, ⟨8, _⟩ => ⟨S512x1, .f32⟩
  | .local _ .vmem, ⟨9, _⟩ => ⟨S512x1, .f32⟩
  | .local _ .vmem, ⟨10, _⟩ => ⟨S512x4096, .f32⟩
  | .local _ .vmem, ⟨11, _⟩ => ⟨S512x4096, .f32⟩
  | .local _ .vmem, ⟨12, _⟩ => ⟨S512x4096, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 43], ![false, false]⟩

def k0_cond2 (i : grid0.Coords) : BitVec 1 :=
  let arg1 : BitVec 32 := BitVec.ofNat 32 (i 1).val
  let c42_i32 : BitVec 32 := 42#32
  let v27 : BitVec 1 := Scalar.cmpi .eq arg1 c42_i32
  let v28 : BitVec 32 := Scalar.extui v27
  let c0_i32_16 : BitVec 32 := 0#32
  let v29 : BitVec 1 := Scalar.cmpi .ne v28 c0_i32_16
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S2x2048x4096_S4096x4096 : S2x2048x4096.ShapeCasts S4096x4096
  bitsLt_bf16_f32 : FTy.bits .bf16 < FTy.bits .f32
  shapeCasts_S2x2048_S4096x1 : S2x2048.ShapeCasts S4096x1
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x256 : S512x1.Broadcasts S512x256
  shapeCasts_S4096x4096_S2x2048x4096 : S4096x4096.ShapeCasts S2x2048x4096
  dot_S512x4096_S256x4096_S512x256_1_1_0_0_n_n_wf : DotDims.WF S512x4096 S256x4096 S512x256 [1] [1] [0] [0] [] []
  dot_S512x256_S4096x256_S512x4096_1_1_0_0_n_n_wf : DotDims.WF S512x256 S4096x256 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .bf16 = 32 ∨ (Rect.block (s := S4096x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .bf16 = 32 ∨ (Rect.block (s := S11008x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S11008x4096.size a
  hwx0_2 : ∀ i : grid0.Coords, EltTy.bits .bf16 = 32 ∨ (Rect.block (s := S11008x4096) S256x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S4096x11008.size a
  hwx0_3 : ∀ i : grid0.Coords, EltTy.bits .bf16 = 32 ∨ (Rect.block (s := S4096x11008) S4096x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x4096.size a ≤ S4096x4096.size a
  hwx0_5 : ∀ i : grid0.Coords, EltTy.bits .f32 = 32 ∨ (Rect.block (s := S4096x4096) S512x4096.size (cc0_transform_5 i) (hinb0_5 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf
def dot_S512x256_S4096x256_S512x4096_1_1_0_0_n_n : DotDims S512x256 S4096x256 S512x4096 where
  lhsContracting := [1]
  rhsContracting := [1]
  lhsNonContracting := [0]
  rhsNonContracting := [0]
  lhsBatch := []
  rhsBatch := []
  wf := dot_S512x256_S4096x256_S512x4096_1_1_0_0_n_n_wf

abbrev win0_0 : Pipeline.Window sig grid0 :=
  Pipeline.Window.ofSpec (Memref.whole main_v1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S4096x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S512x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S11008x4096 : Shape := ⟨2, ![11008, 4096]⟩
abbrev S4096x11008 : Shape := ⟨2, ![4096, 11008]⟩
abbrev S2x2048 : Shape := ⟨2, ![2, 2048]⟩
abbrev S2x2048x11008 : Shape := ⟨3, ![2, 2048, 11008]⟩
abbrev S_ : Shape := ⟨0, ![]⟩
abbrev S2x2048x1 : Shape := ⟨3, ![2, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S11008x4096, .f32⟩
  | .hbm, ⟨2, _⟩ => ⟨S11008x4096, .f32⟩
  | .hbm, ⟨3, _⟩ => ⟨S4096x11008, .f32⟩
  | .hbm, ⟨4, _⟩ => ⟨S2x2048, .i32⟩
  | .hbm, ⟨5, _⟩ => ⟨S2x2048x11008, .f32⟩
  | .hbm, ⟨6, _⟩ => ⟨S2x2048x11008, .f32⟩
  | .hbm, ⟨7, _⟩ => ⟨S2x2048x11008, .f32⟩
  | .hbm, ⟨8, _⟩ => ⟨S2x2048x11008, .f32⟩
  | .hbm, ⟨9, _⟩ => ⟨S_, .f32⟩
  | .hbm, ⟨10, _⟩ => ⟨S2x2048x11008, .f32⟩
  | .hbm, ⟨11, _⟩ => ⟨S2x2048x11008, .f32⟩
  | .hbm, ⟨12, _⟩ => ⟨S_, .f32⟩
  | .hbm, ⟨13, _⟩ => ⟨S2x2048x11008, .f32⟩
  | .hbm, ⟨14, _⟩ => ⟨S2x2048x11008, .f32⟩
  | .hbm, ⟨15, _⟩ => ⟨S2x2048x11008, .f32⟩
  | .hbm, ⟨16, _⟩ => ⟨S2x2048, .f32⟩
  | .hbm, ⟨17, _⟩ => ⟨S2x2048x1, .f32⟩
  | .hbm, ⟨18, _⟩ => ⟨S2x2048x11008, .f32⟩
  | .hbm, ⟨19, _⟩ => ⟨S2x2048x11008, .f32⟩
  | .hbm, ⟨20, _⟩ => ⟨S2x2048x11008, .f32⟩
  | .hbm, ⟨21, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]

class Facts₀ : Prop where
  bcast_S_S2x2048x11008 : S_.BroadcastsInDim S2x2048x11008 (![] : Fin 0 → Fin S2x2048x11008.rank)
  bcast_S2x2048_S2x2048x1_0_1 : S2x2048.BroadcastsInDim S2x2048x1 (![0, 1] : Fin 2 → Fin S2x2048x1.rank)
  bcast_S2x2048x1_S2x2048x11008_0_1_2 : S2x2048x1.BroadcastsInDim S2x2048x11008 (![0, 1, 2] : Fin 3 → Fin S2x2048x11008.rank)
  dot_S2x2048x4096_S11008x4096_S2x2048x11008_2_1_01_0_n_n_wf : DotDims.WF S2x2048x4096 S11008x4096 S2x2048x11008 [2] [1] [0, 1] [0] [] []
  dot_S2x2048x11008_S4096x11008_S2x2048x4096_2_1_01_0_n_n_wf : DotDims.WF S2x2048x11008 S4096x11008 S2x2048x4096 [2] [1] [0, 1] [0] [] []

variable [Facts₀]

def dot_S2x2048x4096_S11008x4096_S2x2048x11008_2_1_01_0_n_n : DotDims S2x2048x4096 S11008x4096 S2x2048x11008 where
  lhsContracting := [2]
  rhsContracting := [1]
  lhsNonContracting := [0, 1]
  rhsNonContracting := [0]
  lhsBatch := []
  rhsBatch := []
  wf := dot_S2x2048x4096_S11008x4096_S2x2048x11008_2_1_01_0_n_n_wf
def dot_S2x2048x11008_S4096x11008_S2x2048x4096_2_1_01_0_n_n : DotDims S2x2048x11008 S4096x11008 S2x2048x4096 where
  lhsContracting := [2]
  rhsContracting := [1]
  lhsNonContracting := [0, 1]
  rhsNonContracting := [0]
  lhsBatch := []
  rhsBatch := []
  wf := dot_S2x2048x11008_S4096x11008_S2x2048x4096_2_1_01_0_n_n_wf

class Facts : Prop extends Facts₀ where

variable [Facts]
-- ==== Proof.Pieces.lean ====
/-
  What one run of the kernel body leaves behind, case by case, as values.

  The body keeps a running total in a scratch block.  At the first channel group of a row block it clears the
  scratch and then adds the group's contribution; at every later group it adds the contribution to what the scratch
  held; at the last group it also copies the scratch, after the addition, into the output block.  Each of these
  is ONE covering store, so what the scratch (or the output block) holds afterwards is that store's value:
  the body's arithmetic `k0_pay2` of the input blocks and of the total so far (the cleared block `k0_pay1` at the
  first group).  Stated for any float instance.
-/
import proofs.«163182_j8306466750646_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Found

open Cert.KernelIdeal Cert.KernelIdeal.Gen

variable {F : FTy → Type} [FloatOps F]

theorem hz : (![0, 0] : Fin 2 → Nat) = fun _ => 0 := funext fun a => by fin_cases a <;> rfl

/-- First group of a row block: the scratch is cleared, read back, and ends at the cleared block plus the group's
    contribution. -/
theorem scratch_first (c : Dev nD) (i : grid0.Coords) (a2 : Memref sig .tc .vmem S512x4096 .bf16) (h2 : a2.IsWhole) (a3 : Memref sig .tc .vmem S256x4096 .bf16) (h3 : a3.IsWhole) (a4 : Memref sig .tc .vmem S256x4096 .bf16) (h4 : a4.IsWhole) (a5 : Memref sig .tc .vmem S4096x256 .bf16) (h5 : a5.IsWhole) (a6 : Memref sig .tc .vmem S512x1 .f32) (h6 : a6.IsWhole) (a7 : Memref sig .tc .vmem S512x4096 .f32) (h7 : a7.IsWhole) (a8 : Memref sig .tc .vmem S512x4096 .f32) (h8 : a8.IsWhole) (hc0 : cond0_0 i) (hc1 : ¬cond0_1 i) (x0 : Vec F S512x4096 .bf16) (x1 : Vec F S256x4096 .bf16) (x2 : Vec F S256x4096 .bf16) (x3 : Vec F S4096x256 .bf16) (x4 : Vec F S512x1 .f32) :
    sout0_A_0 c i a2 h2 a3 h3 a4 h4 a5 h5 a6 h6 a7 h7 a8 h8 hc0 hc1 x0 x1 x2 x3 x4 = k0_pay2 x0 x1 x2 x3 x4 k0_pay1 := by
  unfold sout0_A_0
  rw [View.read_writes_eq_canon _ _ _ (scover0_A_0 c i a2 h2 a3 h3 a4 h4 a5 h5 a6 h6 a7 h7 a8 h8 hc0 hc1 x0 x1 x2 x3 x4)]
  unfold kernelRun0_A
  dsimp only
  sl_unfold_words
  rw [View.canon_cons_unit_zero (S := S512x4096) hz, View.readCov_unit_zero (S := S512x4096) _ hz]
  simp only [View.readAt_eq_ld, h2.read_unread, h3.read_unread, h4.read_unread, h5.read_unread, h6.read_unread, h8.read_unread,
    View.ld_unit_zero (S := S512x4096) hz, View.ld_unit_zero (S := S256x4096) hz, View.ld_unit_zero (S := S4096x256) hz,
    View.ld_unit_zero (S := S512x1) hz]

/-- A middle group: the scratch ends at what it held plus the group's contribution. -/
theorem scratch_middle (c : Dev nD) (i : grid0.Coords) (a2 : Memref sig .tc .vmem S512x4096 .bf16) (h2 : a2.IsWhole) (a3 : Memref sig .tc .vmem S256x4096 .bf16) (h3 : a3.IsWhole) (a4 : Memref sig .tc .vmem S256x4096 .bf16) (h4 : a4.IsWhole) (a5 : Memref sig .tc .vmem S4096x256 .bf16) (h5 : a5.IsWhole) (a6 : Memref sig .tc .vmem S512x1 .f32) (h6 : a6.IsWhole) (a7 : Memref sig .tc .vmem S512x4096 .f32) (h7 : a7.IsWhole) (a8 : Memref sig .tc .vmem S512x4096 .f32) (h8 : a8.IsWhole) (hc0 : ¬cond0_0 i) (hc1 : ¬cond0_1 i) (x0 : Vec F S512x4096 .bf16) (x1 : Vec F S256x4096 .bf16) (x2 : Vec F S256x4096 .bf16) (x3 : Vec F S4096x256 .bf16) (x4 : Vec F S512x1 .f32) (xs0 : Vec F S512x4096 .f32) :
    sout0_B_0 c i a2 h2 a3 h3 a4 h4 a5 h5 a6 h6 a7 h7 a8 h8 hc0 hc1 x0 x1 x2 x3 x4 xs0 = k0_pay2 x0 x1 x2 x3 x4 xs0 := by
  unfold sout0_B_0
  rw [View.read_writes_eq_canon _ _ _ (scover0_B_0 c i a2 h2 a3 h3 a4 h4 a5 h5 a6 h6 a7 h7 a8 h8 hc0 hc1 x0 x1 x2 x3 x4 xs0)]
  unfold kernelRun0_B
  dsimp only
  rw [View.canon_unit_zero hz]
  simp only [View.readAt_eq_ld, h2.read_unread, h3.read_unread, h4.read_unread, h5.read_unread, h6.read_unread, h8.read_unread,
    View.ld_unit_zero (S := S512x4096) hz, View.ld_unit_zero (S := S256x4096) hz, View.ld_unit_zero (S := S4096x256) hz,
    View.ld_unit_zero (S := S512x1) hz]

/-- The last group: the scratch ends at what it held plus the group's contribution, -/
theorem scratch_last (c : Dev nD) (i : grid0.Coords) (a2 : Memref sig .tc .vmem S512x4096 .bf16) (h2 : a2.IsWhole) (a3 : Memref sig .tc .vmem S256x4096 .bf16) (h3 : a3.IsWhole) (a4 : Memref sig .tc .vmem S256x4096 .bf16) (h4 : a4.IsWhole) (a5 : Memref sig .tc .vmem S4096x256 .bf16) (h5 : a5.IsWhole) (a6 : Memref sig .tc .vmem S512x1 .f32) (h6 : a6.IsWhole) (a7 : Memref sig .tc .vmem S512x4096 .f32) (h7 : a7.IsWhole) (a8 : Memref sig .tc .vmem S512x4096 .f32) (h8 : a8.IsWhole) (hc0 : ¬cond0_0 i) (hc1 : cond0_1 i) (x0 : Vec F S512x4096 .bf16) (x1 : Vec F S256x4096 .bf16) (x2 : Vec F S256x4096 .bf16) (x3 : Vec F S4096x256 .bf16) (x4 : Vec F S512x1 .f32) (xs0 : Vec F S512x4096 .f32) :
    sout0_C_0 c i a2 h2 a3 h3 a4 h4 a5 h5 a6 h6 a7 h7 a8 h8 hc0 hc1 x0 x1 x2 x3 x4 xs0 = k0_pay2 x0 x1 x2 x3 x4 xs0 := by
  unfold sout0_C_0
  rw [View.read_writes_eq_canon _ _ _ (scover0_C_0 c i a2 h2 a3 h3 a4 h4 a5 h5 a6 h6 a7 h7 a8 h8 hc0 hc1 x0 x1 x2 x3 x4 xs0)]
  unfold kernelRun0_C
  dsimp only
  sl_unfold_words
  rw [View.canon_unit_zero hz]
  simp only [View.readAt_eq_ld, h2.read_unread, h3.read_unread, h4.read_unread, h5.read_unread, h6.read_unread, h8.read_unread,
    View.ld_unit_zero (S := S512x4096) hz, View.ld_unit_zero (S := S256x4096) hz, View.ld_unit_zero (S := S4096x256) hz,
    View.ld_unit_zero (S := S512x1) hz]

/-- and the output block is a copy of it. -/
theorem out_last (c : Dev nD) (i : grid0.Coords) (a2 : Memref sig .tc .vmem S512x4096 .bf16) (h2 : a2.IsWhole) (a3 : Memref sig .tc .vmem S256x4096 .bf16) (h3 : a3.IsWhole) (a4 : Memref sig .tc .vmem S256x4096 .bf16) (h4 : a4.IsWhole) (a5 : Memref sig .tc .vmem S4096x256 .bf16) (h5 : a5.IsWhole) (a6 : Memref sig .tc .vmem S512x1 .f32) (h6 : a6.IsWhole) (a7 : Memref sig .tc .vmem S512x4096 .f32) (h7 : a7.IsWhole) (a8 : Memref sig .tc .vmem S512x4096 .f32) (h8 : a8.IsWhole) (hc0 : ¬cond0_0 i) (hc1 : cond0_1 i) (x0 : Vec F S512x4096 .bf16) (x1 : Vec F S256x4096 .bf16) (x2 : Vec F S256x4096 .bf16) (x3 : Vec F S4096x256 .bf16) (x4 : Vec F S512x1 .f32) (xs0 : Vec F S512x4096 .f32) :
    out0_C_5 c i a2 h2 a3 h3 a4 h4 a5 h5 a6 h6 a7 h7 a8 h8 hc0 hc1 x0 x1 x2 x3 x4 xs0 = k0_pay2 x0 x1 x2 x3 x4 xs0 := by
  unfold out0_C_5
  rw [View.read_writes_eq_canon _ _ _ (cover0_C_5 c i a2 h2 a3 h3 a4 h4 a5 h5 a6 h6 a7 h7 a8 h8 hc0 hc1 x0 x1 x2 x3 x4 xs0)]
  unfold kernelRun0_C
  dsimp only
  sl_unfold_words
  rw [View.canon_unit_zero hz, View.readCov_unit_zero (S := S512x4096) _ hz]
  simp only [View.readAt_eq_ld, h2.read_unread, h3.read_unread, h4.read_unread, h5.read_unread, h6.read_unread, h8.read_unread,
    View.ld_unit_zero (S := S512x4096) hz, View.ld_unit_zero (S := S256x4096) hz, View.ld_unit_zero (S := S4096x256) hz,
    View.ld_unit_zero (S := S512x1) hz]

end Cert.KernelIdeal.Found

end
-- ==== Proof.Spec.lean ====
/-
  The mathematics of the route-masked gated MLP, over the extended reals.

  For a token matrix `a` (rows × width), two projection matrices `wu`, `wg` (channels × width), a per-row mask
  `mk` and a down-projection matrix `wd` (columns × channels):

    proj a w r k       = ∑ₕ a r h · w k h                                    (a row of `a` against a row of `w`)
    gated a wu wg mk   = proj a wu · (proj a wg · logistic (proj a wg)) · mk  (the gated, masked activation)
    result             = proj (gated a wu wg mk) wd                          (the down projection)

  The 11008 channels are 43 consecutive groups of 256.  A sum over all channels is the sum over the groups of the
  sums inside each group; and the sum of the first `n` groups grows by one group at a time.  Both are facts about a
  commutative monoid: nothing here asks the summands to be finite.
-/
import Idealize.ShloMosaic.PureOps.Ideal
import Mathlib.Algebra.BigOperators.Fin
import Mathlib.Algebra.BigOperators.Group.Finset.Basic

noncomputable section

open scoped BigOperators

namespace Cert.GatedMlp

open Idealize.ShloMosaic

/-- A row of `a` against a row of `w`: the entry `(r, k)` of `a · wᵀ`. -/
def proj {R K H : ℕ} (a : Fin R → Fin H → EReal) (w : Fin K → Fin H → EReal) (r : Fin R) (k : Fin K) : EReal :=
  ∑ h : Fin H, a r h * w k h

/-- The gated activation: the up projection times `g · logistic g` of the gate projection, times the row's mask. -/
def gated {R K H : ℕ} (a : Fin R → Fin H → EReal) (wu wg : Fin K → Fin H → EReal) (mk : Fin R → EReal)
    (r : Fin R) (k : Fin K) : EReal :=
  proj a wu r k * (proj a wg r k * Ideal.logistic (proj a wg r k)) * mk r

/-- Channel `j` of group `b`. -/
def chan (b : Fin 43) (j : Fin 256) : Fin 11008 := ⟨b.val * 256 + j.val, by have := b.isLt; have := j.isLt; omega⟩

/-- The 11008 channels are the 43 groups of 256. -/
def chanEquiv : Fin 43 × Fin 256 ≃ Fin 11008 where
  toFun p := chan p.1 p.2
  invFun k := (⟨k.val / 256, by have := k.isLt; omega⟩, ⟨k.val % 256, Nat.mod_lt _ (by decide)⟩)
  left_inv p := by
    obtain ⟨b, j⟩ := p
    have := b.isLt; have := j.isLt
    refine Prod.ext (Fin.ext ?_) (Fin.ext ?_)
    · show (b.val * 256 + j.val) / 256 = b.val; omega
    · show (b.val * 256 + j.val) % 256 = j.val; omega
  right_inv k := by
    refine Fin.ext ?_
    show k.val / 256 * 256 + k.val % 256 = k.val; omega

/-- A sum over all channels, group by group. -/
theorem sum_chan {M : Type*} [AddCommMonoid M] (f : Fin 11008 → M) :
    ∑ k : Fin 11008, f k = ∑ b : Fin 43, ∑ j : Fin 256, f (chan b j) := by
  rw [← Equiv.sum_comp chanEquiv f, Fintype.sum_prod_type]
  rfl

/-- One group's share of a contraction over the channels. -/
def group {R C : ℕ} (hd : Fin R → Fin 11008 → EReal) (wd : Fin C → Fin 11008 → EReal) (b : Fin 43) (r : Fin R) (c : Fin C) :
    EReal :=
  ∑ j : Fin 256, hd r (chan b j) * wd c (chan b j)

/-- The same, for a group number given as a natural number (zero past the last group). -/
def groupN {R C : ℕ} (hd : Fin R → Fin 11008 → EReal) (wd : Fin C → Fin 11008 → EReal) (n : ℕ) (r : Fin R) (c : Fin C) :
    EReal :=
  if h : n < 43 then group hd wd ⟨n, h⟩ r c else 0

/-- The first `n` groups' shares, added up. -/
def firstGroups {R C : ℕ} (hd : Fin R → Fin 11008 → EReal) (wd : Fin C → Fin 11008 → EReal) (n : ℕ) (r : Fin R) (c : Fin C) :
    EReal :=
  ∑ b ∈ Finset.range n, groupN hd wd b r c

theorem firstGroups_zero {R C : ℕ} (hd : Fin R → Fin 11008 → EReal) (wd : Fin C → Fin 11008 → EReal) (r : Fin R) (c : Fin C) :
    firstGroups hd wd 0 r c = 0 := by
  unfold firstGroups; rw [Finset.range_zero, Finset.sum_empty]

theorem firstGroups_succ {R C : ℕ} (hd : Fin R → Fin 11008 → EReal) (wd : Fin C → Fin 11008 → EReal) (n : ℕ) (h : n < 43)
    (r : Fin R) (c : Fin C) :
    firstGroups hd wd (n + 1) r c = firstGroups hd wd n r c + group hd wd ⟨n, h⟩ r c := by
  unfold firstGroups; rw [Finset.sum_range_succ]
  unfold groupN; rw [dif_pos h]

/-- All 43 groups together are the contraction over all channels. -/
theorem firstGroups_all {R C : ℕ} (hd : Fin R → Fin 11008 → EReal) (wd : Fin C → Fin 11008 → EReal) (r : Fin R) (c : Fin C) :
    firstGroups hd wd 43 r c = proj hd wd r c := by
  unfold firstGroups proj
  rw [Finset.sum_range, sum_chan]
  refine Finset.sum_congr rfl fun b _ => ?_
  unfold groupN; rw [dif_pos b.isLt]
  rfl

end Cert.GatedMlp

end
-- ==== Proof.LibDotRows.lean ====
/-
  General lemma: a product of two matrices contracted over the LAST axis of both, read at an index.

  For dimension numbers `D` of a product of an `M × K` operand with an `N × K` operand into `M × N` that contract
  ONE axis — the second of each operand, no batch axis — the sum over `D`'s contraction index that the ideal
  instance gives for a `tpu.matmul` into a zero accumulator and for a host `dot_general` alike is
  `∑ k : Fin K, l (r, k) · w (c, k)` at the entry `(r, c)`: a row of the left operand against a row of the right one.
  What makes a given `D` of this kind is stated as four facts about the coordinates of its operand indices, which a
  concrete record proves by unfolding its lists of axes.
-/
import Idealize.ShloMosaic.Lib.ValueIdx
import Idealize.ShloMosaic.PureOps.Ideal.Laws

noncomputable section

open scoped BigOperators

namespace Cert.Lib.DotRows

open Idealize.ShloMosaic Idealize.ShloMosaic.ValueIdx

/-- The contraction sum re-indexed by the contracted axis' coordinate: at the output index `j` the left operand is
    read along its row `j 0` and the right operand along its row `j 1`. -/
theorem sum_rows {M K N : Nat}
    (D : DotDims (⟨2, ![M, K]⟩ : Shape) (⟨2, ![N, K]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (j 1).val)
    (r1 : ∀ (j : (⟨2, ![M, N]⟩ : Shape).Idx) (q : D.contr.Idx), (D.rhsIdx j q 1).val = (q ⟨0, by omega⟩).val)
    (l : (⟨2, ![M, K]⟩ : Shape).Idx → EReal) (r : (⟨2, ![N, K]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 (j 1) k) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 (j 1) k := funext fun a => Fin.ext (by
    match a with
    | ⟨0, _⟩ => exact r0 _ _
    | ⟨1, _⟩ => exact (r1 _ _).trans hk)
  exact congrArg₂ (fun a b : EReal => a * b) (congrArg l el) (congrArg r er)

/-- A `tpu.matmul` with such dimension numbers into the zero accumulator, at the ideal instance, is that sum. -/
theorem matmul_zero_apply {M K N : Nat} {φ₁ φ₂ : FTy}
    (D : DotDims (⟨2, ![M, K]⟩ : Shape) (⟨2, ![N, K]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (j 1).val)
    (r1 : ∀ (j : (⟨2, ![M, N]⟩ : Shape).Idx) (q : D.contr.Idx), (D.rhsIdx j q 1).val = (q ⟨0, by omega⟩).val)
    (prec : Option ContractPrecision)
    (l : FVec Ideal (⟨2, ![M, K]⟩ : Shape) φ₁) (r : FVec Ideal (⟨2, ![N, K]⟩ : Shape) φ₂)
    (j : (⟨2, ![M, N]⟩ : Shape).Idx) :
    FloatOps.matmul D prec l r (constant (⟨2, ![M, N]⟩ : Shape) .f32 0x00000000#32) j
      = ∑ k : Fin K, l (ix2 (j 0) k) * r (ix2 (j 1) k) := by
  rw [Ideal.matmul_constant_zero_apply]
  exact sum_rows D hr hs l0 l1 r0 r1 l r j

end Cert.Lib.DotRows

end
-- ==== Proof.LibKeepdims.lean ====
/-
  General lemmas: the "keepdims" column forms of a rank-2 array read at an index.
  A vector of length `n` cast to an `[n, 1]` column, and an `[n, 1]` column broadcast along its unit axis to
  `[n, b]`, each read at an index built with `ix2`; and the index a reduction over the last axis of an `[n, b]`
  array inserts.
-/
import Idealize.ShloMosaic.Lib.ValueIdx
import Idealize.ShloMosaic.Lib.Pipeline.Value
import Idealize.ShloMosaic.Lib.ValueLayout

noncomputable section

namespace Keepdims

open Idealize.ShloMosaic Idealize.ShloMosaic.ValueIdx

variable {α : Type}

/-- An `[n, 1]` column broadcast to `[n, b]` reads, at `(p, j)`, the column at `p`. -/
theorem broadcastTo_a1_ab_apply {n b : ℕ} (v : (⟨2, ![n, 1]⟩ : Shape).Idx → α) (h : (⟨2, ![n, 1]⟩ : Shape).Broadcasts ⟨2, ![n, b]⟩)
    (p : Fin n) (j : Fin b) : broadcastTo ⟨2, ![n, b]⟩ v h (ix2 p j) = v (ix2 p (0 : Fin 1)) := by
  refine broadcastTo_apply v h (ix2 p j) (ix2 p (0 : Fin 1)) fun ax => ?_
  match ax with
  | ⟨0, _⟩ =>
    show p.val = if n = 1 then 0 else p.val
    split
    · have := p.isLt; omega
    · rfl
  | ⟨1, _⟩ => rfl

/-- A length-`n` vector cast to an `[n, 1]` column reads, at `(p, 0)`, the vector at `p`. -/
theorem shapeCast_a_a1_apply {n : ℕ} (v : (⟨1, ![n]⟩ : Shape).Idx → α) (h : (⟨1, ![n]⟩ : Shape).ShapeCasts ⟨2, ![n, 1]⟩)
    (p : Fin n) : shapeCast ⟨2, ![n, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

end Keepdims

end
-- ==== Proof.Payload.lean ====
/-
  The body's arithmetic read at one entry, over the extended reals.

  Of its input blocks — 512 token rows `x0`, 256 rows each of the two projection matrices `x1`, `x2`, the 256
  matching columns `x3` of the down-projection matrix, the 512 rows' mask column `x4` — and the running total `acc`,
  the body computes, at row `p` and column `q`,

      acc (p, q) + ∑ⱼ gated (p, j) · x3 (q, j),

  where `gated (p, j)` is the gated, masked activation of row `p` at the block's channel `j`: the three matrix
  products are sums over their contracted axis, the rounding to a narrower float format before the last product is
  the identity here, and the mask column is broadcast along the channels.
-/
import proofs.«163182_j8306466750646_1_alg».proof.Proof.Gen.KernelIdeal.Skeleton
import proofs.«163182_j8306466750646_1_alg».proof.Proof.Spec
import proofs.«163182_j8306466750646_1_alg».proof.Proof.LibDotRows
import proofs.«163182_j8306466750646_1_alg».proof.Proof.LibKeepdims
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.Payload

open Cert.KernelIdeal Cert.KernelIdeal.Gen Cert.GatedMlp

/-! ## The two products' dimension numbers: a row of the left operand against a row of the right one -/

theorem up_l0 (j : S512x256.Idx) (q : dot_S512x4096_S256x4096_S512x256_1_1_0_0_n_n.contr.Idx) :
    (dot_S512x4096_S256x4096_S512x256_1_1_0_0_n_n.lhsIdx j q 0).val = (j 0).val := by
  unfold DotDims.lhsIdx
  rw [dif_neg (show ¬(0 : Fin S512x4096.rank) ∈ dot_S512x4096_S256x4096_S512x256_1_1_0_0_n_n.lhsBatch by decide), dif_pos (show (0 : Fin S512x4096.rank) ∈ dot_S512x4096_S256x4096_S512x256_1_1_0_0_n_n.lhsNonContracting by decide)]
  rfl
theorem up_l1 (j : S512x256.Idx) (q : dot_S512x4096_S256x4096_S512x256_1_1_0_0_n_n.contr.Idx) :
    (dot_S512x4096_S256x4096_S512x256_1_1_0_0_n_n.lhsIdx j q 1).val = (q ⟨0, by decide⟩).val :=
  dot_S512x4096_S256x4096_S512x256_1_1_0_0_n_n.lhsIdx_val_of_single rfl j q
theorem up_r0 (j : S512x256.Idx) (q : dot_S512x4096_S256x4096_S512x256_1_1_0_0_n_n.contr.Idx) :
    (dot_S512x4096_S256x4096_S512x256_1_1_0_0_n_n.rhsIdx j q 0).val = (j 1).val := by
  unfold DotDims.rhsIdx
  rw [dif_neg (show ¬(0 : Fin S256x4096.rank) ∈ dot_S512x4096_S256x4096_S512x256_1_1_0_0_n_n.rhsBatch by decide), dif_pos (show (0 : Fin S256x4096.rank) ∈ dot_S512x4096_S256x4096_S512x256_1_1_0_0_n_n.rhsNonContracting by decide)]
  rfl
theorem up_r1 (j : S512x256.Idx) (q : dot_S512x4096_S256x4096_S512x256_1_1_0_0_n_n.contr.Idx) :
    (dot_S512x4096_S256x4096_S512x256_1_1_0_0_n_n.rhsIdx j q 1).val = (q ⟨0, by decide⟩).val :=
  dot_S512x4096_S256x4096_S512x256_1_1_0_0_n_n.rhsIdx_val_of_single rfl j q

theorem down_l0 (j : S512x4096.Idx) (q : dot_S512x256_S4096x256_S512x4096_1_1_0_0_n_n.contr.Idx) :
    (dot_S512x256_S4096x256_S512x4096_1_1_0_0_n_n.lhsIdx j q 0).val = (j 0).val := by
  unfold DotDims.lhsIdx
  rw [dif_neg (show ¬(0 : Fin S512x256.rank) ∈ dot_S512x256_S4096x256_S512x4096_1_1_0_0_n_n.lhsBatch by decide), dif_pos (show (0 : Fin S512x256.rank) ∈ dot_S512x256_S4096x256_S512x4096_1_1_0_0_n_n.lhsNonContracting by decide)]
  rfl
theorem down_l1 (j : S512x4096.Idx) (q : dot_S512x256_S4096x256_S512x4096_1_1_0_0_n_n.contr.Idx) :
    (dot_S512x256_S4096x256_S512x4096_1_1_0_0_n_n.lhsIdx j q 1).val = (q ⟨0, by decide⟩).val :=
  dot_S512x256_S4096x256_S512x4096_1_1_0_0_n_n.lhsIdx_val_of_single rfl j q
theorem down_r0 (j : S512x4096.Idx) (q : dot_S512x256_S4096x256_S512x4096_1_1_0_0_n_n.contr.Idx) :
    (dot_S512x256_S4096x256_S512x4096_1_1_0_0_n_n.rhsIdx j q 0).val = (j 1).val := by
  unfold DotDims.rhsIdx
  rw [dif_neg (show ¬(0 : Fin S4096x256.rank) ∈ dot_S512x256_S4096x256_S512x4096_1_1_0_0_n_n.rhsBatch by decide), dif_pos (show (0 : Fin S4096x256.rank) ∈ dot_S512x256_S4096x256_S512x4096_1_1_0_0_n_n.rhsNonContracting by decide)]
  rfl
theorem down_r1 (j : S512x4096.Idx) (q : dot_S512x256_S4096x256_S512x4096_1_1_0_0_n_n.contr.Idx) :
    (dot_S512x256_S4096x256_S512x4096_1_1_0_0_n_n.rhsIdx j q 1).val = (q ⟨0, by decide⟩).val :=
  dot_S512x256_S4096x256_S512x4096_1_1_0_0_n_n.rhsIdx_val_of_single rfl j q

/-- A projection of the token block: 512 × 4096 against 256 × 4096, into the zero accumulator. -/
theorem project_apply (x0 : FVec Ideal S512x4096 .bf16) (w : FVec Ideal S256x4096 .bf16) (p : Fin 512) (j : Fin 256) :
    matmul dot_S512x4096_S256x4096_S512x256_1_1_0_0_n_n none x0 w (constant (F := Ideal) S512x256 .f32 0x00000000#32) (ix2 p j)
      = ∑ h : Fin 4096, x0 (ix2 p h) * w (ix2 j h) :=
  Cert.Lib.DotRows.matmul_zero_apply dot_S512x4096_S256x4096_S512x256_1_1_0_0_n_n rfl rfl up_l0 up_l1 up_r0 up_r1 none x0 w (ix2 p j)

/-- The down projection of a 512 × 256 block of activations against 4096 × 256, into the zero accumulator. -/
theorem contract_apply (hd : FVec Ideal S512x256 .bf16) (w : FVec Ideal S4096x256 .bf16) (p : Fin 512) (q : Fin 4096) :
    matmul dot_S512x256_S4096x256_S512x4096_1_1_0_0_n_n none hd w (constant (F := Ideal) S512x4096 .f32 0x00000000#32) (ix2 p q)
      = ∑ j : Fin 256, hd (ix2 p j) * w (ix2 q j) :=
  Cert.Lib.DotRows.matmul_zero_apply dot_S512x256_S4096x256_S512x4096_1_1_0_0_n_n rfl rfl down_l0 down_l1 down_r0 down_r1 none hd w (ix2 p q)

/-- The body's value at `(p, q)`: the total so far plus the block's share of the down projection. -/
theorem pay2_apply (x0 : Vec Ideal S512x4096 .bf16) (x1 x2 : Vec Ideal S256x4096 .bf16) (x3 : Vec Ideal S4096x256 .bf16)
    (x4 : Vec Ideal S512x1 .f32) (acc : Vec Ideal S512x4096 .f32) (p : Fin 512) (q : Fin 4096) :
    k0_pay2 (F := Ideal) x0 x1 x2 x3 x4 acc (ix2 p q)
      = acc (ix2 p q) + proj (gated (fun p h => x0 (ix2 p h)) (fun j h => x1 (ix2 j h)) (fun j h => x2 (ix2 j h))
          (fun p => x4 (ix2 p (0 : Fin 1)))) (fun q j => x3 (ix2 q j)) p q := by
  unfold k0_pay2
  simp only [shapeCast_self]
  refine congrArg (acc (ix2 p q) + ·) ?_
  refine (contract_apply _ x3 p q).trans ?_
  unfold proj
  refine Finset.sum_congr rfl fun j _ => ?_
  refine congrArg (· * x3 (ix2 q j)) ?_
  unfold gated proj
  refine congrArg₂ (fun a b : EReal => a * b) (congrArg₂ (fun a b : EReal => a * b) (project_apply x0 x1 p j) ?_)
    (Keepdims.broadcastTo_a1_ab_apply x4 broadcasts_S512x1_S512x256 p j)
  exact congrArg (fun g : EReal => g * Ideal.logistic g) (project_apply x0 x2 p j)

end Cert.KernelIdeal.Payload

end
-- ==== Proof.Running.lean ====
/-
  The running total, point by point.

  The grid walks the 8 row blocks of 512 tokens, and inside each the 43 channel groups in order: point `n` is row
  block `n / 43`, group `n % 43`.  There the body reads rows `512·(n/43) …` of the tokens and of the mask, rows
  `256·(n%43) …` of the two projection matrices and the matching columns of the down-projection matrix.  So after
  point `n` the scratch holds, at `(p, q)`, the down projection of row `512·(n/43) + p` restricted to the first
  `n % 43 + 1` channel groups: by induction on the point — the first group starts from the cleared scratch, every
  later one adds its group to what the point before left.  At the last group of a row block the output block is
  that total over all 43 groups: the whole down projection.
-/
import proofs.«163182_j8306466750646_1_alg».proof.Proof.Pieces
import proofs.«163182_j8306466750646_1_alg».proof.Proof.Payload

noncomputable section

open Idealize.ShloMosaic Idealize.ShloMosaic.TcCoe Idealize.SL.Sem Idealize.ShloMosaic.ValueIdx

namespace Cert.KernelIdeal.Running

open Cert.KernelIdeal Cert.KernelIdeal.Gen Cert.GatedMlp Cert.KernelIdeal.Found Cert.KernelIdeal.Payload

variable (m : (ℓ : Loc nD τ sig) → Buf (Elt Ideal) ℓ)

/-! ## The arrays the region finds, as functions of coordinates -/

/-- The tokens, one row per token. -/
def tok (c : Dev nD) : Fin 4096 → Fin 4096 → EReal := fun r h => V m c main_v1 (ix2 r h)
/-- The up- and gate-projection matrices, one row per channel. -/
def wUp (c : Dev nD) : Fin 11008 → Fin 4096 → EReal := fun k h => V m c main_v2 (ix2 k h)
def wGate (c : Dev nD) : Fin 11008 → Fin 4096 → EReal := fun k h => V m c main_v3 (ix2 k h)
/-- The down-projection matrix, one row per output column. -/
def wDown (c : Dev nD) : Fin 4096 → Fin 11008 → EReal := fun q k => V m c main_v4 (ix2 q k)
/-- The tokens' mask. -/
def msk (c : Dev nD) : Fin 4096 → EReal := fun r => V m c main_v6 (ix2 r (0 : Fin 1))

/-- The gated, masked activations of all tokens at all channels. -/
def act (c : Dev nD) : Fin 4096 → Fin 11008 → EReal := gated (tok m c) (wUp m c) (wGate m c) (msk m c)

/-- Row `p` of row block `b`. -/
def row (b : Fin 8) (p : Fin 512) : Fin 4096 := ⟨b.val * 512 + p.val, by have := b.isLt; have := p.isLt; omega⟩

/-! ## Which block each window reads at a point -/

/-- The printed index maps, decided over the grid. -/
theorem idx_facts : ∀ t : Fin cfg0.N,
    win0_0.index t (0 : Fin 2) = t.val / 43 ∧ win0_0.index t (1 : Fin 2) = 0
    ∧ win0_1.index t (0 : Fin 2) = t.val % 43 ∧ win0_1.index t (1 : Fin 2) = 0
    ∧ win0_2.index t (0 : Fin 2) = t.val % 43 ∧ win0_2.index t (1 : Fin 2) = 0
    ∧ win0_3.index t (0 : Fin 2) = 0 ∧ win0_3.index t (1 : Fin 2) = t.val % 43
    ∧ win0_4.index t (0 : Fin 2) = t.val / 43 ∧ win0_4.index t (1 : Fin 2) = 0
    ∧ win0_5.index t (0 : Fin 2) = t.val / 43 ∧ win0_5.index t (1 : Fin 2) = 0 :=
  (by decide +kernel : ∀ t : Fin grid0.N, _)

theorem tok_block (c : Dev nD) (t : Fin cfg0.N) (b : Fin 8) (hb : b.val = t.val / 43) (p : Fin 512) (h : Fin 4096) :
    (iblk m c 0 t : Vec Ideal S512x4096 .bf16) (ix2 p h) = tok m c (row b p) h := by
  obtain ⟨e0, e1, -⟩ := idx_facts t
  unfold iblk tok
  rw [View.read_apply]
  show V m c main_v1 _ = V m c main_v1 _
  refine congrArg (V m c main_v1) (funext fun a => Fin.ext ?_)
  match a with
  | ⟨0, _⟩ => show win0_0.index t (0 : Fin 2) * 512 + 1 * p.val = b.val * 512 + p.val; rw [e0, hb]; omega
  | ⟨1, _⟩ => show win0_0.index t (1 : Fin 2) * 4096 + 1 * h.val = h.val; rw [e1]; omega

theorem wUp_block (c : Dev nD) (t : Fin cfg0.N) (g : Fin 43) (hg : g.val = t.val % 43) (j : Fin 256) (h : Fin 4096) :
    (iblk m c 1 t : Vec Ideal S256x4096 .bf16) (ix2 j h) = wUp m c (chan g j) h := by
  obtain ⟨-, -, e0, e1, -⟩ := idx_facts t
  unfold iblk wUp
  rw [View.read_apply]
  show V m c main_v2 _ = V m c main_v2 _
  refine congrArg (V m c main_v2) (funext fun a => Fin.ext ?_)
  match a with
  | ⟨0, _⟩ => show win0_1.index t (0 : Fin 2) * 256 + 1 * j.val = g.val * 256 + j.val; rw [e0, hg]; omega
  | ⟨1, _⟩ => show win0_1.index t (1 : Fin 2) * 4096 + 1 * h.val = h.val; rw [e1]; omega

theorem wGate_block (c : Dev nD) (t : Fin cfg0.N) (g : Fin 43) (hg : g.val = t.val % 43) (j : Fin 256) (h : Fin 4096) :
    (iblk m c 2 t : Vec Ideal S256x4096 .bf16) (ix2 j h) = wGate m c (chan g j) h := by
  obtain ⟨-, -, -, -, e0, e1, -⟩ := idx_facts t
  unfold iblk wGate
  rw [View.read_apply]
  show V m c main_v3 _ = V m c main_v3 _
  refine congrArg (V m c main_v3) (funext fun a => Fin.ext ?_)
  match a with
  | ⟨0, _⟩ => show win0_2.index t (0 : Fin 2) * 256 + 1 * j.val = g.val * 256 + j.val; rw [e0, hg]; omega
  | ⟨1, _⟩ => show win0_2.index t (1 : Fin 2) * 4096 + 1 * h.val = h.val; rw [e1]; omega

theorem wDown_block (c : Dev nD) (t : Fin cfg0.N) (g : Fin 43) (hg : g.val = t.val % 43) (q : Fin 4096) (j : Fin 256) :
    (iblk m c 3 t : Vec Ideal S4096x256 .bf16) (ix2 q j) = wDown m c q (chan g j) := by
  obtain ⟨-, -, -, -, -, -, e0, e1, -⟩ := idx_facts t
  unfold iblk wDown
  rw [View.read_apply]
  show V m c main_v4 _ = V m c main_v4 _
  refine congrArg (V m c main_v4) (funext fun a => Fin.ext ?_)
  match a with
  | ⟨0, _⟩ => show win0_3.index t (0 : Fin 2) * 4096 + 1 * q.val = q.val; rw [e0]; omega
  | ⟨1, _⟩ => show win0_3.index t (1 : Fin 2) * 256 + 1 * j.val = g.val * 256 + j.val; rw [e1, hg]; omega

theorem msk_block (c : Dev nD) (t : Fin cfg0.N) (b : Fin 8) (hb : b.val = t.val / 43) (p : Fin 512) :
    (iblk m c 4 t : Vec Ideal S512x1 .f32) (ix2 p (0 : Fin 1)) = msk m c (row b p) := by
  obtain ⟨-, -, -, -, -, -, -, -, e0, e1, -⟩ := idx_facts t
  unfold iblk msk
  rw [View.read_apply]
  show V m c main_v6 _ = V m c main_v6 _
  refine congrArg (V m c main_v6) (funext fun a => Fin.ext ?_)
  match a with
  | ⟨0, _⟩ => show win0_4.index t (0 : Fin 2) * 512 + 1 * p.val = b.val * 512 + p.val; rw [e0, hb]; omega
  | ⟨1, _⟩ => show win0_4.index t (1 : Fin 2) * 1 + 1 * 0 = 0; rw [e1]

/-! ## One point's step -/

/-- The body's value at a point, over any total so far: that total plus the point's group of the down projection. -/
theorem step_value (c : Dev nD) (t : Fin cfg0.N) (b : Fin 8) (hb : b.val = t.val / 43) (g : Fin 43) (hg : g.val = t.val % 43) (acc : Vec Ideal S512x4096 .f32) (p : Fin 512) (q : Fin 4096) :
    k0_pay2 (F := Ideal) (iblk m c 0 t) (iblk m c 1 t) (iblk m c 2 t) (iblk m c 3 t) (iblk m c 4 t) acc (ix2 p q)
      = acc (ix2 p q) + group (act m c) (wDown m c) g (row b p) q := by
  refine (pay2_apply (iblk m c 0 t) (iblk m c 1 t) (iblk m c 2 t) (iblk m c 3 t) (iblk m c 4 t) acc p q).trans ?_
  refine congrArg (acc (ix2 p q) + ·) ?_
  have eu : ∀ j : Fin 256, proj (fun p h => (iblk m c 0 t : Vec Ideal S512x4096 .bf16) (ix2 p h))
      (fun j h => (iblk m c 1 t : Vec Ideal S256x4096 .bf16) (ix2 j h)) p j = proj (tok m c) (wUp m c) (row b p) (chan g j) := fun j =>
    Finset.sum_congr rfl fun h _ => congrArg₂ (fun x y : EReal => x * y) (tok_block m c t b hb p h) (wUp_block m c t g hg j h)
  have eg : ∀ j : Fin 256, proj (fun p h => (iblk m c 0 t : Vec Ideal S512x4096 .bf16) (ix2 p h))
      (fun j h => (iblk m c 2 t : Vec Ideal S256x4096 .bf16) (ix2 j h)) p j = proj (tok m c) (wGate m c) (row b p) (chan g j) := fun j =>
    Finset.sum_congr rfl fun h _ => congrArg₂ (fun x y : EReal => x * y) (tok_block m c t b hb p h) (wGate_block m c t g hg j h)
  refine Finset.sum_congr rfl fun j _ => ?_
  refine congrArg₂ (fun x y : EReal => x * y) ?_ (wDown_block m c t g hg q j)
  unfold act gated
  exact congrArg₂ (fun x y : EReal => x * y)
    (congrArg₂ (fun x y : EReal => x * y) (eu j) (congrArg (fun z : EReal => z * Ideal.logistic z) (eg j)))
    (msk_block m c t b hb p)

/-- The cleared scratch holds zero. -/
theorem cleared_apply (y : S512x4096.Idx) : k0_pay1 (F := Ideal) y = 0 := by
  unfold k0_pay1
  simp only [shapeCast_self]
  exact Ideal.ofBits_zero_f32

end Cert.KernelIdeal.Running

end
-- ==== Proof.Cases.lean ====
/-
  What the scratch and the output block hold after a point, in each of the three situations a point can be in:
  the first channel group of a row block, a middle group, the last group.  In each the generated run's found stores
  are one covering store, and its value is the body's arithmetic of the point's input blocks and of what the point
  before left in the scratch (the cleared block at a first group).
-/
import proofs.«163182_j8306466750646_1_alg».proof.Proof.Pieces

noncomputable section

open Idealize.ShloMosaic Idealize.ShloMosaic.TcCoe Idealize.SL.Sem

namespace Cert.KernelIdeal.Running

open Cert.KernelIdeal Cert.KernelIdeal.Gen Cert.KernelIdeal.Found

variable {F : FTy → Type} [FloatOps F] (m : (ℓ : Loc nD τ sig) → Buf (Elt F) ℓ)

/-- After the first group of a row block. -/
theorem scratch_at_first (c : Dev nD) (t : Fin cfg0.N) (h0 : t.val % 43 = 0) (h1 : ¬t.val % 43 = 42) :
    (outsAt0 m c t.val t.isLt).2 = k0_pay2 (iblk m c 0 t) (iblk m c 1 t) (iblk m c 2 t) (iblk m c 3 t) (iblk m c 4 t) k0_pay1 := by
  rw [outsAt0_A m c t h0 h1]
  dsimp only
  exact scratch_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)

/-- After a middle group. -/
theorem scratch_at_middle (c : Dev nD) (t : Fin cfg0.N) (h0 : ¬t.val % 43 = 0) (h1 : ¬t.val % 43 = 42) :
    (outsAt0 m c t.val t.isLt).2 = k0_pay2 (iblk m c 0 t) (iblk m c 1 t) (iblk m c 2 t) (iblk m c 3 t) (iblk m c 4 t) (outsAt0 m c (t.val - 1) (Nat.lt_of_le_of_lt (Nat.sub_le _ _) t.isLt)).2 := by
  rw [outsAt0_B m c t h0 h1]
  dsimp only
  exact scratch_middle c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2

/-- After the last group: the scratch, -/
theorem scratch_at_last (c : Dev nD) (t : Fin cfg0.N) (h0 : ¬t.val % 43 = 0) (h1 : t.val % 43 = 42) :
    (outsAt0 m c t.val t.isLt).2 = k0_pay2 (iblk m c 0 t) (iblk m c 1 t) (iblk m c 2 t) (iblk m c 3 t) (iblk m c 4 t) (outsAt0 m c (t.val - 1) (Nat.lt_of_le_of_lt (Nat.sub_le _ _) t.isLt)).2 := by
  rw [outsAt0_C m c t h0 h1]
  dsimp only
  exact scratch_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2

/-- and the output block. -/
theorem out_at_last (c : Dev nD) (t : Fin cfg0.N) (h0 : ¬t.val % 43 = 0) (h1 : t.val % 43 = 42) :
    (outsAt0 m c t.val t.isLt).1 = k0_pay2 (iblk m c 0 t) (iblk m c 1 t) (iblk m c 2 t) (iblk m c 3 t) (iblk m c 4 t) (outsAt0 m c (t.val - 1) (Nat.lt_of_le_of_lt (Nat.sub_le _ _) t.isLt)).2 := by
  rw [outsAt0_C m c t h0 h1]
  dsimp only
  exact out_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2

end Cert.KernelIdeal.Running

end
-- ==== Proof.Total.lean ====
/-
  The running total after every point, by induction on the point.

  After point `t` — row block `t / 43`, channel group `t % 43` — the scratch holds at `(p, q)` the down projection of
  token row `512·(t/43) + p` over the first `t % 43 + 1` channel groups.  At the first group the total starts from
  the cleared scratch, which is zero; at every later group the point before is in the same row block, one group
  earlier, and its total is the induction hypothesis.  At the last group the body's copy into the output block is the
  total over all 43 groups, which is the contraction over all 11008 channels.
-/
import proofs.«163182_j8306466750646_1_alg».proof.Proof.Running
import proofs.«163182_j8306466750646_1_alg».proof.Proof.Cases

noncomputable section

open Idealize.ShloMosaic Idealize.ShloMosaic.TcCoe Idealize.SL.Sem Idealize.ShloMosaic.ValueIdx

namespace Cert.KernelIdeal.Running

open Cert.KernelIdeal Cert.KernelIdeal.Gen Cert.GatedMlp Cert.KernelIdeal.Found Cert.KernelIdeal.Payload

variable (m : (ℓ : Loc nD τ sig) → Buf (Elt Ideal) ℓ)

/-- The scratch after point `t`. -/
theorem total_eq (c : Dev nD) : ∀ (n : ℕ) (t : Fin cfg0.N), t.val = n → ∀ (b : Fin 8) (hb : b.val = t.val / 43) (p : Fin 512) (q : Fin 4096),
    (outsAt0 m c t.val t.isLt).2 (ix2 p q) = firstGroups (act m c) (wDown m c) (t.val % 43 + 1) (row b p) q := by
  intro n
  induction n using Nat.strong_induction_on with
  | _ n ih =>
    intro t ht b hb p q
    have hN : cfg0.N = 344 := N_0
    have htl := t.isLt
    have hlt : t.val % 43 < 43 := Nat.mod_lt _ (by decide)
    rw [firstGroups_succ _ _ (t.val % 43) hlt]
    by_cases h0 : t.val % 43 = 0
    · have h1 : ¬ t.val % 43 = 42 := by omega
      rw [scratch_at_first m c t h0 h1]
      refine (step_value m c t b hb ⟨t.val % 43, hlt⟩ rfl (k0_pay1 (F := Ideal)) p q).trans ?_
      have ez : firstGroups (act m c) (wDown m c) (t.val % 43) (row b p) q = 0 := by
        rw [h0]; exact firstGroups_zero _ _ _ _
      rw [ez, cleared_apply]
    · have hprev := ih (t.val - 1) (by omega) ⟨t.val - 1, by omega⟩ rfl b (by show b.val = (t.val - 1) / 43; omega) p q
      have e43 : (t.val - 1) % 43 + 1 = t.val % 43 := by omega
      dsimp only at hprev
      rw [e43] at hprev
      by_cases h1 : t.val % 43 = 42
      · rw [scratch_at_last m c t h0 h1]
        refine (step_value m c t b hb ⟨t.val % 43, hlt⟩ rfl (outsAt0 m c (t.val - 1) (Nat.lt_of_le_of_lt (Nat.sub_le _ _) t.isLt)).2 p q).trans ?_
        exact congrArg (· + group (act m c) (wDown m c) ⟨t.val % 43, hlt⟩ (row b p) q) hprev
      · rw [scratch_at_middle m c t h0 h1]
        refine (step_value m c t b hb ⟨t.val % 43, hlt⟩ rfl (outsAt0 m c (t.val - 1) (Nat.lt_of_le_of_lt (Nat.sub_le _ _) t.isLt)).2 p q).trans ?_
        exact congrArg (· + group (act m c) (wDown m c) ⟨t.val % 43, hlt⟩ (row b p) q) hprev

/-- The output block at the last group of a row block: the whole down projection of the block's rows. -/
theorem out_eq (c : Dev nD) (t : Fin cfg0.N) (h42 : t.val % 43 = 42) (b : Fin 8) (hb : b.val = t.val / 43)
    (p : Fin 512) (q : Fin 4096) :
    (outsAt0 m c t.val t.isLt).1 (ix2 p q) = proj (act m c) (wDown m c) (row b p) q := by
  have hN : cfg0.N = 344 := N_0
  have htl := t.isLt
  have h0 : ¬ t.val % 43 = 0 := by omega
  have hprev := total_eq m c (t.val - 1) ⟨t.val - 1, by omega⟩ rfl b (by show b.val = (t.val - 1) / 43; omega) p q
  have e43 : (t.val - 1) % 43 + 1 = 42 := by omega
  dsimp only at hprev
  rw [e43] at hprev
  rw [← firstGroups_all]
  show _ = firstGroups (act m c) (wDown m c) (42 + 1) (row b p) q
  rw [firstGroups_succ _ _ 42 (by decide), out_at_last m c t h0 h42]
  refine (step_value m c t b hb ⟨42, by decide⟩ h42.symm (outsAt0 m c (t.val - 1) (Nat.lt_of_le_of_lt (Nat.sub_le _ _) t.isLt)).2 p q).trans ?_
  exact congrArg (· + group (act m c) (wDown m c) ⟨42, by decide⟩ (row b p) q) hprev

end Cert.KernelIdeal.Running

end
-- ==== Proof.ArgForm.lean ====
/-
  The result as ONE function of the five argument arrays.

  The tokens arrive as a [2, 2048, 4096] array: token `r` of the flattened 4096 is entry `(r / 2048, r % 2048)`, and
  entry `(s, l)` is token `2048·s + l`.  The mask arrives as [2, 2048] integers, read as numbers.  The result at
  `(s, l, q)` is the down projection of the gated, masked activations of token `2048·s + l`, at column `q`.
-/
import proofs.«163182_j8306466750646_1_alg».proof.Proof.Spec
import Idealize.ShloMosaic.Lib.ValueIdx

noncomputable section

namespace Cert.GatedMlp

open Idealize.ShloMosaic Idealize.ShloMosaic.ValueIdx

/-- Token `2048·s + l`. -/
def token (s : Fin 2) (l : Fin 2048) : Fin 4096 := ⟨s.val * 2048 + l.val, by have := s.isLt; have := l.isLt; omega⟩
/-- The two coordinates of token `r`. -/
def seqOf (r : Fin 4096) : Fin 2 := ⟨r.val / 2048, by have := r.isLt; omega⟩
def posOf (r : Fin 4096) : Fin 2048 := ⟨r.val % 2048, Nat.mod_lt _ (by decide)⟩

theorem seqOf_token (s : Fin 2) (l : Fin 2048) : seqOf (token s l) = s :=
  Fin.ext (by have := s.isLt; have := l.isLt; show (s.val * 2048 + l.val) / 2048 = s.val; omega)
theorem posOf_token (s : Fin 2) (l : Fin 2048) : posOf (token s l) = l :=
  Fin.ext (by have := s.isLt; have := l.isLt; show (s.val * 2048 + l.val) % 2048 = l.val; omega)

/-- The tokens as a matrix, one row per token. -/
def tokensOf (x0 : (⟨3, ![2, 2048, 4096]⟩ : Shape).Idx → EReal) : Fin 4096 → Fin 4096 → EReal :=
  fun r h => x0 (ix3 (seqOf r) (posOf r) h)
/-- A rank-2 array as a function of its two coordinates. -/
def matrixOf {A B : ℕ} (w : (⟨2, ![A, B]⟩ : Shape).Idx → EReal) : Fin A → Fin B → EReal := fun a b => w (ix2 a b)
/-- The mask of each token, as a number. -/
def maskOf (x4 : (⟨2, ![2, 2048]⟩ : Shape).Idx → BitVec 32) : Fin 4096 → EReal :=
  fun r => FloatOps.sitofp (F := Ideal) .f32 (x4 (ix2 (seqOf r) (posOf r)))

/-- The whole result, entry by entry. -/
def mlp (x0 : (⟨3, ![2, 2048, 4096]⟩ : Shape).Idx → EReal) (x1 x2 : (⟨2, ![11008, 4096]⟩ : Shape).Idx → EReal)
    (x3 : (⟨2, ![4096, 11008]⟩ : Shape).Idx → EReal) (x4 : (⟨2, ![2, 2048]⟩ : Shape).Idx → BitVec 32) :
    (⟨3, ![2, 2048, 4096]⟩ : Shape).Idx → EReal :=
  fun i => proj (gated (tokensOf x0) (matrixOf x1) (matrixOf x2) (maskOf x4)) (matrixOf x3) (token (i 0) (i 1)) (i 2)

end Cert.GatedMlp

end
-- ==== Proof.Entry.lean ====
/-
  The arrays the region finds, from the program's arguments.

  Before the region the host flattens the tokens [2, 2048, 4096] to [4096, 4096] — token `r` is entry
  `(r / 2048, r % 2048)`, the same row-major position —, narrows the tokens and the three matrices to a shorter float
  format, which changes no value here, and flattens the integer mask [2, 2048] to a [4096, 1] column that it reads as
  numbers.  So the gated activations the kernel works with are those of the argument arrays.
-/
import proofs.«163182_j8306466750646_1_alg».proof.Proof.Running
import proofs.«163182_j8306466750646_1_alg».proof.Proof.ArgForm
import Idealize.ShloMosaic.Lib.StableHlo.Run

noncomputable section

open Idealize.ShloMosaic Idealize.ShloMosaic.TcCoe Idealize.SL.Sem Idealize.ShloMosaic.ValueIdx Idealize.ShloMosaic.StableHlo

namespace Cert.KernelIdeal.Running

open Cert.KernelIdeal Cert.KernelIdeal.Gen Cert.GatedMlp

variable (m : (ℓ : Loc nD τ sig) → Buf (Elt Ideal) ℓ)

theorem tok_arg (c : Dev nD) : tok m c = tokensOf (m ((c : Thread nD τ).loc main_arg0)) := by
  funext r h
  have e : V m c main_v1 = truncf (F := Ideal) .bf16 (shapeCast S4096x4096 (m ((c : Thread nD τ).loc main_arg0)) shapeCasts_S2x2048x4096_S4096x4096) bitsLt_bf16_f32 := by
    show StableHlo.after hostOps0 (fun b => m (c, b)) (Proc.devRef .tc main_v1) = _
    after_results <;> rfl
  unfold tok tokensOf
  rw [e]
  show shapeCast S4096x4096 (m ((c : Thread nD τ).loc main_arg0)) shapeCasts_S2x2048x4096_S4096x4096 (ix2 r h) = _
  refine shapeCast_apply _ _ (ix2 r h) (ix3 (seqOf r) (posOf r) h) ?_
  rw [Shape.rowMajor_val_three, Shape.rowMajor_val_two]
  show (r.val / 2048 * 2048 + r.val % 2048) * 4096 + h.val = r.val * 4096 + h.val
  omega

theorem wUp_arg (c : Dev nD) : wUp m c = matrixOf (m ((c : Thread nD τ).loc main_arg1)) := by
  funext k h
  have e : V m c main_v2 = truncf (F := Ideal) .bf16 (m ((c : Thread nD τ).loc main_arg1)) bitsLt_bf16_f32 := by
    show StableHlo.after hostOps0 (fun b => m (c, b)) (Proc.devRef .tc main_v2) = _
    after_results <;> rfl
  unfold wUp matrixOf
  rw [e]
  rfl

theorem wGate_arg (c : Dev nD) : wGate m c = matrixOf (m ((c : Thread nD τ).loc main_arg2)) := by
  funext k h
  have e : V m c main_v3 = truncf (F := Ideal) .bf16 (m ((c : Thread nD τ).loc main_arg2)) bitsLt_bf16_f32 := by
    show StableHlo.after hostOps0 (fun b => m (c, b)) (Proc.devRef .tc main_v3) = _
    after_results <;> rfl
  unfold wGate matrixOf
  rw [e]
  rfl

theorem wDown_arg (c : Dev nD) : wDown m c = matrixOf (m ((c : Thread nD τ).loc main_arg3)) := by
  funext q k
  have e : V m c main_v4 = truncf (F := Ideal) .bf16 (m ((c : Thread nD τ).loc main_arg3)) bitsLt_bf16_f32 := by
    show StableHlo.after hostOps0 (fun b => m (c, b)) (Proc.devRef .tc main_v4) = _
    after_results <;> rfl
  unfold wDown matrixOf
  rw [e]
  rfl

theorem msk_arg (c : Dev nD) : msk m c = maskOf (m ((c : Thread nD τ).loc main_arg4)) := by
  funext r
  have e : V m c main_v6 = sitofp (F := Ideal) .f32 (shapeCast S4096x1 (m ((c : Thread nD τ).loc main_arg4)) shapeCasts_S2x2048_S4096x1) := by
    show StableHlo.after hostOps0 (fun b => m (c, b)) (Proc.devRef .tc main_v6) = _
    after_results <;> rfl
  unfold msk maskOf
  rw [e]
  refine congrArg (fun w : BitVec 32 => FloatOps.sitofp (F := Ideal) .f32 w)
    (shapeCast_apply _ shapeCasts_S2x2048_S4096x1 (ix2 r (0 : Fin 1)) (ix2 (seqOf r) (posOf r)) ?_)
  rw [Shape.rowMajor_val_two, Shape.rowMajor_val_two]
  show r.val / 2048 * 2048 + r.val % 2048 = r.val * 1 + 0
  omega

/-- The activations the kernel works with are those of the argument arrays. -/
theorem act_arg (c : Dev nD) : act m c = gated (tokensOf (m ((c : Thread nD τ).loc main_arg0))) (matrixOf (m ((c : Thread nD τ).loc main_arg1)))
    (matrixOf (m ((c : Thread nD τ).loc main_arg2))) (maskOf (m ((c : Thread nD τ).loc main_arg4))) := by
  unfold act
  rw [tok_arg, wUp_arg, wGate_arg, msk_arg]

end Cert.KernelIdeal.Running

end
-- ==== Proof.Result.lean ====
/-
  The kernel's result array, and its run read back.

  The output block of a row block is written back once, after the row block's last channel group, and then holds
  the whole down projection of the block's 512 rows.  The 8 row blocks tile the 4096 × 4096 result array (row `r` is in
  row block `r / 512`), so the array ends holding the down projection of every token's activations; the host then
  reshapes it to [2, 2048, 4096], where token `2048·s + l` becomes entry `(s, l)`.  Written through the argument
  arrays this is the function `mlp`.
-/
import proofs.«163182_j8306466750646_1_alg».proof.Proof.Total
import proofs.«163182_j8306466750646_1_alg».proof.Proof.Entry
import Idealize.ShloMosaic.Lib.Pipeline.Value
import Idealize.ShloMosaic.Lib.StableHlo.Run

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Running

open Cert.KernelIdeal Cert.KernelIdeal.Gen Cert.GatedMlp

variable (m : (ℓ : Loc nD τ sig) → Buf (Elt Ideal) ℓ) (ρ : Dev nD → PrngReg)

/-- The 4096 × 4096 array of down projections, one row per token. -/
def flat (c : Dev nD) : Buf (Elt Ideal) ((c : Thread nD τ).loc main_v7) :=
  fun (i : S4096x4096.Idx) => proj (act m c) (wDown m c) (i 0) (i 1)

/-- What the write-back after a row block's last group writes is that row block of `flat`. -/
theorem flushed_eq (c : Dev nD) (t : Fin cfg0.N) (hf : (cfg0.win 5).flush t = true) :
    (dats m 0 c).flushed 5 t = ((cfg0.win 5).blk t).view.read (Elt Ideal) (flat m c) := by
  have hN : cfg0.N = 344 := N_0
  have htl := t.isLt
  have h42 : t.val % 43 = 42 := (flush0_5 t).mp hf
  obtain ⟨-, -, -, -, -, -, -, -, -, -, e0, e1⟩ := idx_facts t
  show (cfg0.win 5).cut (grid0.coords t) ((dats m 0 c).after 5 t) = _
  rw [after0_5]
  refine funext fun (y : S512x4096.Idx) => ?_
  obtain ⟨p, q, rfl⟩ : ∃ (p : Fin 512) (q : Fin 4096), y = ix2 p q := ⟨y 0, y 1, eq_ix2 y⟩
  rw [View.read_apply]
  show (outsAt0 m c t.val t.isLt).1 (ix2 p q) = _
  rw [out_eq m c t h42 ⟨t.val / 43, by omega⟩ rfl p q]
  unfold flat
  refine congrArg₂ (proj (act m c) (wDown m c)) (Fin.ext ?_) (Fin.ext ?_)
  · show t.val / 43 * 512 + p.val = win0_5.index t (0 : Fin 2) * 512 + 1 * p.val
    rw [e0]; omega
  · show q.val = win0_5.index t (1 : Fin 2) * 4096 + 1 * q.val
    rw [e1]; omega

/-- Every entry of the array is in the block some write-back writes. -/
theorem covered (i : S4096x4096.Idx) :
    ∃ t : Fin cfg0.N, (cfg0.win 5).flush t = true ∧ i ∈ ((cfg0.win 5).blk t).view.set := by
  have hN : cfg0.N = 344 := N_0
  have hi0 : (i 0).val < 4096 := (i 0).isLt
  have hi1 : (i 1).val < 4096 := (i 1).isLt
  obtain ⟨t, ht⟩ : ∃ t : Fin cfg0.N, t.val = (i 0).val / 512 * 43 + 42 := ⟨⟨(i 0).val / 512 * 43 + 42, by omega⟩, rfl⟩
  obtain ⟨-, -, -, -, -, -, -, -, -, -, e0, e1⟩ := idx_facts t
  refine ⟨t, (flush0_5 t).mpr (by omega), ?_⟩
  show i ∈ ((View.whole main_v7).slice (win0_5.rect t)).set
  rw [View.set_slice_whole, Rect.mem_set_unit]
  intro a
  match a with
  | ⟨0, _⟩ =>
    show win0_5.index t (0 : Fin 2) * 512 ≤ (i 0).val ∧ (i 0).val < win0_5.index t (0 : Fin 2) * 512 + 512
    rw [e0]; omega
  | ⟨1, _⟩ =>
    show win0_5.index t (1 : Fin 2) * 4096 ≤ (i 1).val ∧ (i 1).val < win0_5.index t (1 : Fin 2) * 4096 + 4096
    rw [e1]; omega

/-- So the result array ends at `flat`. -/
theorem final (c : Dev nD) : (dats m 0 c).arrAt 5 cfg0.N = flat m c :=
  (dats m 0 c).arrAt_eq_of_cover 5 (flat m c) (flushed_eq m c) covered

/-- The host's reshape after the region, applied to it. -/
theorem tail_eq (c : Dev nD) :
    Pipeline.afterTail₀ cfgs (dats m) 0 (V0 m) [hostOps1] c main_v8
      = shapeCast S2x2048x4096 (flat m c) shapeCasts_S4096x4096_S2x2048x4096 := by
  unfold Pipeline.afterTail₀
  show StableHlo.after hostOps1 _ (Proc.devRef .tc main_v8) = _
  after_results
  rw [Pipeline.withArrays_arr spec0 launch0.win.arr_inj c _ _ 5, final m c]
  rfl

/-- The reshaped array is `mlp` of the argument arrays. -/
theorem reshaped_eq (c : Dev nD) :
    shapeCast S2x2048x4096 (flat m c) shapeCasts_S4096x4096_S2x2048x4096
      = mlp (m ((c : Thread nD τ).loc main_arg0)) (m ((c : Thread nD τ).loc main_arg1)) (m ((c : Thread nD τ).loc main_arg2))
          (m ((c : Thread nD τ).loc main_arg3)) (m ((c : Thread nD τ).loc main_arg4)) := by
  funext i
  obtain ⟨s, l, q, rfl⟩ : ∃ (s : Fin 2) (l : Fin 2048) (q : Fin 4096), i = ix3 s l q := ⟨i 0, i 1, i 2, eq_ix3 i⟩
  refine (shapeCast_apply (flat m c) shapeCasts_S4096x4096_S2x2048x4096 (ix3 s l q) (ix2 (token s l) q) ?_).trans ?_
  · show (S4096x4096.rowMajor (ix2 (token s l) q)).val = (S2x2048x4096.rowMajor (ix3 s l q)).val
    rw [Shape.rowMajor_val_three, Shape.rowMajor_val_two]
    rfl
  · unfold flat mlp
    rw [act_arg, wDown_arg]

/-- The run of the idealized kernel program: its result at `mlp` of the arguments, the arguments unchanged. -/
theorem run : θ_run defs (onTc (τ := τ) (main (F := Ideal))) ⟨m, fun _ => 0, ρ⟩ fun r => ∀ c : Dev nD,
      r.2.mem ((c.tc : Thread nD τ).loc main_v8)
        = mlp (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(((h c).2 main_v8 (Pipeline.mem_restRefs_of main_v8 (by decide) (by decide))).trans (tail_eq m c)).trans (reshaped_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Running

end
-- ==== Proof.RefSide.lean ====
/-
  The reference, read entry by entry.

  At `(s, l, q)` the reference's last contraction sums over all 11008 channels the product of the masked, gated
  activation of token `(s, l)` with the down-projection matrix at `(q, k)`.  Its two projections are sums over the
  4096 hidden coordinates of the token's row against a row of the matrix; its gate factor is `g · (1 / (1 + e^(-g)))`,
  which over the extended reals is `g · logistic g` by the very definition of `logistic`; its mask is the integer mask
  of the token read as a number.  That is the function `mlp` of the five arguments.
-/
import proofs.«163182_j8306466750646_1_alg».proof.Proof.Gen.ReferenceIdeal.Read
import proofs.«163182_j8306466750646_1_alg».proof.Proof.ArgForm
import Idealize.ShloMosaic.Lib.ValueIdx
import Idealize.ShloMosaic.PureOps.Ideal.Laws

noncomputable section

open Idealize.ShloMosaic Idealize.ShloMosaic.ValueIdx

namespace Cert.ReferenceIdeal.RefValue

open Cert.ReferenceIdeal Cert.ReferenceIdeal.Gen Cert.ReferenceIdeal.Read Cert.GatedMlp

/-- The float pattern of `1.0` is the number one. -/
theorem one_f32 : Ideal.ofBits .f32 0x3F800000#32 = 1 := IdealRules.sign_bit.ideal_onePat .f32

/-- The expansion `1 / (1 + e^(-g))` the reference spells is `logistic g`. -/
theorem logistic_spelt (g : EReal) :
    FloatOps.hostDivf (F := Ideal) (φ := .f32) (FloatOps.ofBits .f32 0x3F800000#32)
      (FloatOps.addf (F := Ideal) (φ := .f32) (FloatOps.ofBits .f32 0x3F800000#32) (FloatOps.hostUnary (F := Ideal) (φ := .f32) .exp (FloatOps.hostNegf (F := Ideal) (φ := .f32) g)))
      = Ideal.logistic g := by
  simp only [Ideal.hostDivf_def, Ideal.addf_def, Ideal.hostUnary_exp_def, Ideal.hostNegf_def, Ideal.negf_def, Ideal.ofBits_def, one_f32]
  rfl

variable (x0 : (⟨S2x2048x4096, .f32⟩ : BufTy).Contents (Elt Ideal)) (x1 x2 : (⟨S11008x4096, .f32⟩ : BufTy).Contents (Elt Ideal))
  (x3 : (⟨S4096x11008, .f32⟩ : BufTy).Contents (Elt Ideal)) (x4 : (⟨S2x2048, .i32⟩ : BufTy).Contents (Elt Ideal))

/-- A projection of token `(s, l)` at channel `k`. -/
theorem up_apply (s : Fin 2) (l : Fin 2048) (k : Fin 11008) :
    val_main_v0 (F := Ideal) x0 x1 (ix3 s l k) = proj (tokensOf x0) (matrixOf x1) (token s l) k := by
  rw [val_main_v0_apply]
  unfold proj tokensOf matrixOf
  refine Finset.sum_congr rfl fun h _ => ?_
  rw [seqOf_token, posOf_token]
  refine congrArg₂ (fun a b : EReal => a * b) (congrArg x0 (funext fun a => ?_)) (congrArg x1 (funext fun a => ?_))
  · match a with
    | ⟨0, _⟩ => rfl
    | ⟨1, _⟩ => rfl
    | ⟨2, _⟩ => rfl
  · match a with
    | ⟨0, _⟩ => rfl
    | ⟨1, _⟩ => rfl

theorem gate_apply (s : Fin 2) (l : Fin 2048) (k : Fin 11008) :
    val_main_v1 (F := Ideal) x0 x2 (ix3 s l k) = proj (tokensOf x0) (matrixOf x2) (token s l) k := by
  rw [val_main_v1_apply]
  unfold proj tokensOf matrixOf
  refine Finset.sum_congr rfl fun h _ => ?_
  rw [seqOf_token, posOf_token]
  refine congrArg₂ (fun a b : EReal => a * b) (congrArg x0 (funext fun a => ?_)) (congrArg x2 (funext fun a => ?_))
  · match a with
    | ⟨0, _⟩ => rfl
    | ⟨1, _⟩ => rfl
    | ⟨2, _⟩ => rfl
  · match a with
    | ⟨0, _⟩ => rfl
    | ⟨1, _⟩ => rfl

/-- The mask of token `(s, l)`, broadcast along the channels. -/
theorem mask_apply (s : Fin 2) (l : Fin 2048) (k : Fin 11008) :
    val_main_v6 (F := Ideal) x4 (ix3 s l k) = maskOf x4 (token s l) := by
  rw [val_main_v6_apply, val_main_v4_apply, val_main_v3_apply]
  unfold maskOf
  rw [seqOf_token, posOf_token]
  refine congrArg (fun b : BitVec 32 => FloatOps.sitofp (F := Ideal) .f32 b) (congrArg x4 (funext fun a => ?_))
  match a with
  | ⟨0, _⟩ => rfl
  | ⟨1, _⟩ => rfl

/-- The masked, gated activation of token `(s, l)` at channel `k`. -/
theorem act_apply (s : Fin 2) (l : Fin 2048) (k : Fin 11008) :
    val_main_v7 (F := Ideal) x0 x1 x2 x4 (ix3 s l k)
      = gated (tokensOf x0) (matrixOf x1) (matrixOf x2) (maskOf x4) (token s l) k := by
  rw [val_main_v7_apply, val_main_v5_apply, val_main_v2_apply, val_main_call0_v5_apply, val_main_call0_v4_apply,
    val_main_call0_cst_0_apply, val_main_call0_v3_apply, val_main_call0_v2_apply, val_main_call0_cst_apply,
    val_main_call0_v1_apply, val_main_call0_v0_apply, up_apply, gate_apply, mask_apply, logistic_spelt]
  rfl

/-- The reference's result is `mlp` of its arguments. -/
theorem result_eq : val_main_v8 (F := Ideal) x0 x1 x2 x3 x4 = mlp x0 x1 x2 x3 x4 := by
  funext i
  obtain ⟨s, l, q, rfl⟩ : ∃ (s : Fin 2) (l : Fin 2048) (q : Fin 4096), i = ix3 s l q := ⟨i 0, i 1, i 2, eq_ix3 i⟩
  rw [val_main_v8_apply]
  unfold mlp proj
  refine Finset.sum_congr rfl fun k _ => ?_
  have ei : lidx_main_v8 (ix3 s l q) k = ix3 s l k := funext fun a => by
    match a with
    | ⟨0, _⟩ => rfl
    | ⟨1, _⟩ => rfl
    | ⟨2, _⟩ => rfl
  have er : ridx_main_v8 (ix3 s l q) k = ix2 q k := funext fun a => by
    match a with
    | ⟨0, _⟩ => rfl
    | ⟨1, _⟩ => rfl
  rw [ei, er, act_apply]
  rfl

end Cert.ReferenceIdeal.RefValue

end
-- ==== Proof.lean ====
/-
  A route-masked gated MLP: for tokens `x` [2, 2048, 4096], projection matrices `Wu`, `Wg` [11008, 4096], a
  down-projection matrix `Wd` [4096, 11008] and an integer mask per token,

      out[s, l, q] = ∑ₖ ( (x·Wuᵀ)[s,l,k] · ( g · logistic g ) · mask[s,l] ) · Wd[q, k],     g = (x·Wgᵀ)[s,l,k].

  The kernel walks 8 blocks of 512 tokens and, inside each, the 43 groups of 256 channels in order; it keeps the
  down projection summed over the groups seen so far in a scratch block, cleared at a block's first group, and
  copies it out after the last.  The reference contracts over all 11008 channels at once.  Over the extended reals
  the two agree entry by entry: a change of float format is the identity, `logistic g` is `1 / (1 + e^(-g))` by
  definition, and a sum over 11008 channels is the sum over the 43 groups of the sums inside each group — addition
  of extended reals is commutative and associative, so no finiteness of the inputs is needed for it.

  The three programs' frames are the generated ones (the reference's is its generated run with the result dropped);
  the ideal pass rewrote nothing in the kernel, so there is nothing to preserve.
-/
import proofs.«163182_j8306466750646_1_alg».proof.Defs
import proofs.«163182_j8306466750646_1_alg».proof.Proof.Gen.Kernel
import proofs.«163182_j8306466750646_1_alg».proof.Proof.Gen.Kernel.Frame
import proofs.«163182_j8306466750646_1_alg».proof.Proof.Gen.KernelIdeal
import proofs.«163182_j8306466750646_1_alg».proof.Proof.Gen.KernelIdeal.Frame
import proofs.«163182_j8306466750646_1_alg».proof.Proof.Gen.ReferenceIdeal
import proofs.«163182_j8306466750646_1_alg».proof.Proof.Gen.ReferenceIdeal.Run
import proofs.«163182_j8306466750646_1_alg».proof.Proof.Gen.ReferenceIdeal.Read
import proofs.«163182_j8306466750646_1_alg».proof.Proof.Gen.Pre_finite_inputs
import proofs.«163182_j8306466750646_1_alg».proof.Proof.Result
import proofs.«163182_j8306466750646_1_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with their result at `mlp` of the argument arrays, which agree. -/
theorem algebraic : Cert.algebraic_KernelIdeal_ReferenceIdeal := by
  intro m ρ m' ρ' _ hagree
  refine ⟨fun c => Cert.GatedMlp.mlp (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Running.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v8_eq, Cert.ReferenceIdeal.RefValue.result_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
